-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S16x256 : Shape := ⟨2, ![16, 256]⟩
abbrev S768x256 : Shape := ⟨2, ![768, 256]⟩
abbrev S768 : Shape := ⟨1, ![768]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S16x256 : S_.BroadcastsInDim S16x256 (![] : Fin 0 → Fin S16x256.rank)
  reducesTo_S16x256_S_d0_1 : S16x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S50000x256 .f32) (main_arg1 : FVec F S16x256 .f32) (main_arg2 : FVec F S768x256 .f32) (main_arg3 : FVec F S768x256 .f32) (main_arg4 : FVec F S768 .f32) (main_arg5 : FVec F S768 .f32) (main_arg6 : IVec S800000 32) (main_arg7 : IVec S800000 32) (main_arg8 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_v13 main_v16
-- ==== Kernel.lean ====
abbrev S50000x256 : Shape := ⟨2, ![50000, 256]⟩
abbrev S16x256 : Shape := ⟨2, ![16, 256]⟩
abbrev S768x256 : Shape := ⟨2, ![768, 256]⟩
abbrev S768 : Shape := ⟨1, ![768]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S256x768 : Shape := ⟨2, ![256, 768]⟩
abbrev S1000x256 : Shape := ⟨2, ![1000, 256]⟩
abbrev S1000x768 : Shape := ⟨2, ![1000, 768]⟩
abbrev S1x768 : Shape := ⟨2, ![1, 768]⟩

abbrev nBuf : Space → Nat
  | .hbm => 37
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S16x256, .f32⟩
  | .hbm, ⟨2, _⟩ => ⟨S768x256, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S800000, .i32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S800000x256, .f32⟩
  | .hbm, ⟨28, _⟩ => ⟨S_, .f32⟩
  | .hbm, ⟨29, _⟩ => ⟨S50000x256, .f32⟩
  | .hbm, ⟨30, _⟩ => ⟨S800000x1, .i32⟩
  | .hbm, ⟨31, _⟩ => ⟨S50000x256, .f32⟩
  | .hbm, ⟨32, _⟩ => ⟨S256x768, .f32⟩
  | .hbm, ⟨33, _⟩ => ⟨S256x768, .bf16⟩
  | .hbm, ⟨34, _⟩ => ⟨S256x768, .f32⟩
  | .hbm, ⟨35, _⟩ => ⟨S256x768, .bf16⟩
  | .hbm, ⟨36, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x768, .bf16⟩
  | .local _ .vmem, ⟨5, _⟩ => ⟨S256x768, .bf16⟩
  | .local _ .vmem, ⟨6, _⟩ => ⟨S768, .f32⟩
  | .local _ .vmem, ⟨7, _⟩ => ⟨S768, .f32⟩
  | .local _ .vmem, ⟨8, _⟩ => ⟨S1000x256, .f32⟩
  | .local _ .vmem, ⟨9, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  transposes_S768x256_S256x768_1_0 : S768x256.Transposes [1, 0] S256x768
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  gather_S50000x256_S800000x1_S800000x256_1_0_n_n_0_1_1256_wf : GatherDims.WF S50000x256 S800000x1 S800000x256 [1] [0] [] [0] [] 1 ![1, 256]
  gather_S16x256_S800000x1_S800000x256_1_0_n_n_0_1_1256_wf : GatherDims.WF S16x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S50000x256.size a
  hwx0_1 : ∀ i : grid0.Coords, EltTy.bits .f32 = 32 ∨ (Rect.block (s := S50000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S50000x256.size a
  hwx0_6 : ∀ i : grid0.Coords, EltTy.bits .f32 = 32 ∨ (Rect.block (s := S50000x256) S1000x256.size (cc0_transform_6 i) (hinb0_6 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S16x256_S800000x1_S800000x256_1_0_n_n_0_1_1256 : GatherDims S16x256 S800000x1 S800000x256 where
  offsetDims := [1]
  collapsedSliceDims := [0]
  operandBatchingDims := []
  startIndicesBatchingDims := []
  startIndexMap := [0]
  indexVectorDim := 1
  sliceSizes := ![1, 256]
  wf := gather_S16x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_v17) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S16x256 : Shape := ⟨2, ![16, 256]⟩
abbrev S768x256 : Shape := ⟨2, ![768, 256]⟩
abbrev S768 : Shape := ⟨1, ![768]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S256x768 : Shape := ⟨2, ![256, 768]⟩
abbrev S50000x768 : Shape := ⟨2, ![50000, 768]⟩
abbrev S1x768 : Shape := ⟨2, ![1, 768]⟩

abbrev nBuf : Space → Nat
  | .hbm => 75
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S16x256, .f32⟩
  | .hbm, ⟨2, _⟩ => ⟨S768x256, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S800000, .i32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S800000x256, .f32⟩
  | .hbm, ⟨28, _⟩ => ⟨S_, .f32⟩
  | .hbm, ⟨29, _⟩ => ⟨S50000x256, .f32⟩
  | .hbm, ⟨30, _⟩ => ⟨S800000x1, .i32⟩
  | .hbm, ⟨31, _⟩ => ⟨S50000x256, .f32⟩
  | .hbm, ⟨32, _⟩ => ⟨S256x768, .f32⟩
  | .hbm, ⟨33, _⟩ => ⟨S50000x768, .f32⟩
  | .hbm, ⟨34, _⟩ => ⟨S1x768, .f32⟩
  | .hbm, ⟨35, _⟩ => ⟨S50000x768, .f32⟩
  | .hbm, ⟨36, _⟩ => ⟨S50000x768, .f32⟩
  | .hbm, ⟨37, _⟩ => ⟨S256x768, .f32⟩
  | .hbm, ⟨38, _⟩ => ⟨S50000x768, .f32⟩
  | .hbm, ⟨39, _⟩ => ⟨S1x768, .f32⟩
  | .hbm, ⟨40, _⟩ => ⟨S50000x768, .f32⟩
  | .hbm, ⟨41, _⟩ => ⟨S50000x768, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  transposes_S768x256_S256x768_1_0 : S768x256.Transposes [1, 0] S256x768
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  slices_S50000x768_S50000x256_0_0 : S50000x768.Slices ![0, 0] S50000x256
  slices_S50000x768_S50000x256_0_256 : S50000x768.Slices ![0, 256] S50000x256
  slices_S50000x768_S50000x256_0_512 : S50000x768.Slices ![0, 512] S50000x256
  gather_S50000x256_S800000x1_S800000x256_1_0_n_n_0_1_1256_wf : GatherDims.WF S50000x256 S800000x1 S800000x256 [1] [0] [] [0] [] 1 ![1, 256]
  gather_S16x256_S800000x1_S800000x256_1_0_n_n_0_1_1256_wf : GatherDims.WF S16x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x768_S50000x768_1_0_0_1_n_n_wf : DotDims.WF S50000x256 S256x768 S50000x768 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S16x256_S800000x1_S800000x256_1_0_n_n_0_1_1256 : GatherDims S16x256 S800000x1 S800000x256 where
  offsetDims := [1]
  collapsedSliceDims := [0]
  operandBatchingDims := []
  startIndicesBatchingDims := []
  startIndexMap := [0]
  indexVectorDim := 1
  sliceSizes := ![1, 256]
  wf := gather_S16x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x768_S50000x768_1_0_0_1_n_n : DotDims S50000x256 S256x768 S50000x768 where
  lhsContracting := [1]
  rhsContracting := [0]
  lhsNonContracting := [0]
  rhsNonContracting := [1]
  lhsBatch := []
  rhsBatch := []
  wf := dot_S50000x256_S256x768_S50000x768_1_0_0_1_n_n_wf

class Facts : Prop extends Facts₀ where

variable [Facts]
-- ==== Proof.GruSpec.lean ====
/-
  The gated recurrent update, index by index, over the extended reals.

  A node's new state is computed from two rows: its aggregated message row `x(p, ·)` and its old state row
  `h(p, ·)`, each of 256 entries. Each row goes through an affine map into 768 columns,

      a(p, e) = Σ_k  x(p, k) · W(k, e)  +  b(e),          W of shape [256, 768], b of shape [768],

  and the 768 columns are three consecutive thirds of 256: column c of the reset third is column c, of the update
  third column 256 + c, of the candidate third column 512 + c. With (i_r, i_z, i_n) the three thirds of the message
  row's map and (h_r, h_z, h_n) those of the state row's map,

      r = σ(i_r + h_r),   z = σ(i_z + h_z),   n = tanh(i_n + r · h_n),   out = (1 − z) · n + z · h(p, c),

  σ the logistic function 1 / (1 + e⁻ˣ). Nothing here needs the entries to be finite: both programs compute this
  one expression, the sums taken over k in the same order, so no law of arithmetic is used to join them.
-/
import Idealize.ShloMosaic.PureOps.Ideal
import Idealize.ShloMosaic.Lib.ValueIdx

noncomputable section

namespace Cert.Gru

open Idealize.ShloMosaic Idealize.ShloMosaic.ValueIdx

/-- The f32 word of 1.0 denotes the real number one. -/
theorem one_f32 : Ideal.ofBits .f32 0x3F800000#32 = 1 := by
  simp [Ideal.ofBits, Ideal.ieee, -EReal.coe_mul]; norm_num

/-- Column `c` of the reset third of the 768 gate columns. -/
def colR (c : Fin 256) : Fin 768 := ⟨c.val, by have := c.isLt; omega⟩
/-- Column `c` of the update third. -/
def colZ (c : Fin 256) : Fin 768 := ⟨256 + c.val, by have := c.isLt; omega⟩
/-- Column `c` of the candidate third. -/
def colN (c : Fin 256) : Fin 768 := ⟨512 + c.val, by have := c.isLt; omega⟩

/-- Row `p` of an [n, 256] matrix through the affine map into column `e`: Σ_k x(p, k) · W(k, e) + b(e). -/
def affine {n : ℕ} (x : (⟨2, ![n, 256]⟩ : Shape).Idx → EReal) (w : (⟨2, ![256, 768]⟩ : Shape).Idx → EReal)
    (b : (⟨1, ![768]⟩ : Shape).Idx → EReal) (p : Fin n) (e : Fin 768) : EReal :=
  (∑ k : Fin 256, x (ix2 p k) * w (ix2 k e)) + b (ix1 e)

/-- The gates combined: from the six pre-activations and the old state's entry. The constant is the f32 word of 1.0,
    kept as the word both programs print. -/
def cell (ir iz ic hr hz hc hprev : EReal) : EReal :=
  (Ideal.ofBits .f32 0x3F800000#32 - Ideal.logistic (iz + hz)) * Ideal.tanh (ic + Ideal.logistic (ir + hr) * hc)
    + Ideal.logistic (iz + hz) * hprev

/-- Entry (p, c) of the updated state. -/
def update {n : ℕ} (x h : (⟨2, ![n, 256]⟩ : Shape).Idx → EReal) (wi wh : (⟨2, ![256, 768]⟩ : Shape).Idx → EReal)
    (bi bh : (⟨1, ![768]⟩ : Shape).Idx → EReal) (p : Fin n) (c : Fin 256) : EReal :=
  cell (affine x wi bi p (colR c)) (affine x wi bi p (colZ c)) (affine x wi bi p (colN c))
    (affine h wh bh p (colR c)) (affine h wh bh p (colZ c)) (affine h wh bh p (colN c)) (h (ix2 p c))

/-- The updated state as an array over [n, 256]. -/
def out {n : ℕ} (x h : (⟨2, ![n, 256]⟩ : Shape).Idx → EReal) (wi wh : (⟨2, ![256, 768]⟩ : Shape).Idx → EReal)
    (bi bh : (⟨1, ![768]⟩ : Shape).Idx → EReal) : (⟨2, ![n, 256]⟩ : Shape).Idx → EReal :=
  fun i => update x h wi wh bi bh ⟨(i 0).val, idx2_lt0 i⟩ ⟨(i 1).val, idx2_lt1 i⟩

theorem out_ix2 {n : ℕ} (x h : (⟨2, ![n, 256]⟩ : Shape).Idx → EReal) (wi wh : (⟨2, ![256, 768]⟩ : Shape).Idx → EReal)
    (bi bh : (⟨1, ![768]⟩ : Shape).Idx → EReal) (p : Fin n) (c : Fin 256) :
    out x h wi wh bi bh (ix2 p c) = update x h wi wh bi bh p c := rfl

/-- The update at row `p` reads only row `p` of the two matrices: a tile whose row `p` is row `P` of the whole
    arrays gives the whole arrays' update at row `P`. -/
theorem update_of_rows {n N : ℕ} (x h : (⟨2, ![n, 256]⟩ : Shape).Idx → EReal) (X H : (⟨2, ![N, 256]⟩ : Shape).Idx → EReal)
    (wi wh : (⟨2, ![256, 768]⟩ : Shape).Idx → EReal) (bi bh : (⟨1, ![768]⟩ : Shape).Idx → EReal) (p : Fin n) (P : Fin N)
    (hx : ∀ k : Fin 256, x (ix2 p k) = X (ix2 P k)) (hh : ∀ k : Fin 256, h (ix2 p k) = H (ix2 P k)) (c : Fin 256) :
    update x h wi wh bi bh p c = update X H wi wh bi bh P c := by
  unfold update affine
  simp only [hx, hh]

end Cert.Gru

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.GruTile.lean ====
/-
  The kernel body's stored value, read at an index of the tile.

  The body works on a tile of 1000 node rows. It multiplies the tile of aggregated messages and the tile of old
  states, each [1000, 256], by a [256, 768] weight matrix into a zero accumulator, adds a [768] bias spread over the
  rows, cuts each [1000, 768] result into its three thirds of 256 columns, and combines the six thirds pointwise with
  the old state. Read at (p, q) this is the update of row p at column q: a matrix product into zero is the plain sum
  over the 256 contracted entries, the bias row spread over the rows reads the bias at the column, a third cut at
  offset o reads the source at column o + q, and the changes of float format on the way in are the identity on the
  extended reals.
-/
import proofs.«169423_j53008486367766_1_alg».proof.Proof.Gen.KernelIdeal.Skeleton
import proofs.«169423_j53008486367766_1_alg».proof.Proof.GruSpec
import proofs.«169423_j53008486367766_1_alg».proof.Proof.LibPlainMatmul
import Idealize.ShloMosaic.Lib.ValueLayout
import Idealize.ShloMosaic.Lib.Pipeline.Value
import Idealize.ShloMosaic.PureOps.Ideal.Laws

noncomputable section

namespace Cert.KernelIdeal.GruTile

open Cert.KernelIdeal Idealize.ShloMosaic Idealize.ShloMosaic.ValueIdx

/-- The body's product is an ordinary [1000, 256] × [256, 768] product: left columns against right rows. -/
theorem dims_plain : dot_S1000x256_S256x768_S1000x768_1_0_0_1_n_n = DotDims.plain 1000 256 768 := rfl

/-- The product into the zero accumulator plus the bias spread over the rows, at (p, e): Σ_k x(p, k) · w(k, e) + b(e). -/
theorem affine_tile (x : FVec Ideal S1000x256 .bf16) (w : FVec Ideal S256x768 .bf16) (b : FVec Ideal S768 .f32)
    (hc : S768.ShapeCasts S1x768) (hb : S1x768.Broadcasts S1000x768) (p : Fin 1000) (e : Fin 768) :
    addf (matmul dot_S1000x256_S256x768_S1000x768_1_0_0_1_n_n none x w (constant S1000x768 .f32 0x00000000#32))
        (broadcastTo S1000x768 (shapeCast S1x768 b hc) hb) (ix2 p e)
      = Cert.Gru.affine (n := 1000) x w b p e := by
  show FloatOps.matmul dot_S1000x256_S256x768_S1000x768_1_0_0_1_n_n none x w (constant S1000x768 .f32 0x00000000#32) (ix2 p e)
      + broadcastTo S1000x768 (shapeCast S1x768 b hc) hb (ix2 p e) = _
  rw [dims_plain, matmul_plain_zero_apply, broadcastTo_1b_ab_apply, shapeCast_a_1a_apply]
  rfl

/-- The first third of the 768 columns, at (p, q): the source at column q. -/
theorem third_lo (y : FVec Ideal S1000x768 .f32) (h : S1000x768.Slices ![0, 0] S1000x256) (p : Fin 1000) (q : Fin 256) :
    extractStridedSlice S1000x256 ![0, 0] y h (ix2 p q) = y (ix2 p (Cert.Gru.colR q)) :=
  slice2_axis1_apply 0 y h p q (Cert.Gru.colR q) (by show q.val = 0 + q.val; omega)

/-- The second third, at (p, q): the source at column 256 + q. -/
theorem third_mid (y : FVec Ideal S1000x768 .f32) (h : S1000x768.Slices ![0, 256] S1000x256) (p : Fin 1000) (q : Fin 256) :
    extractStridedSlice S1000x256 ![0, 256] y h (ix2 p q) = y (ix2 p (Cert.Gru.colZ q)) :=
  slice2_axis1_apply 256 y h p q (Cert.Gru.colZ q) rfl

/-- The last third, at (p, q): the source at column 512 + q. -/
theorem third_hi (y : FVec Ideal S1000x768 .f32) (h : S1000x768.Slices ![0, 512] S1000x256) (p : Fin 1000) (q : Fin 256) :
    extractStridedSlice S1000x256 ![0, 512] y h (ix2 p q) = y (ix2 p (Cert.Gru.colN q)) :=
  slice2_axis1_apply 512 y h p q (Cert.Gru.colN q) rfl

/-- The pointwise part of the body over the two [1000, 768] affine results and the old state, at (p, q): the gates
    combined from the six thirds' entries at row p. -/
theorem combine_apply (gi gh : FVec Ideal S1000x768 .f32) (hprev : FVec Ideal S1000x256 .f32)
    (h0 : S1000x768.Slices ![0, 0] S1000x256) (h1 : S1000x768.Slices ![0, 256] S1000x256)
    (h2 : S1000x768.Slices ![0, 512] S1000x256) (p : Fin 1000) (q : Fin 256) :
    addf (mulf (subf (broadcast S1000x256 (Scalar.ofBits (F := Ideal) .f32 0x3F800000#32))
            (logistic (addf (extractStridedSlice S1000x256 ![0, 256] gi h1) (extractStridedSlice S1000x256 ![0, 256] gh h1))))
          (tanh (addf (extractStridedSlice S1000x256 ![0, 512] gi h2)
            (mulf (logistic (addf (extractStridedSlice S1000x256 ![0, 0] gi h0) (extractStridedSlice S1000x256 ![0, 0] gh h0)))
              (extractStridedSlice S1000x256 ![0, 512] gh h2)))))
        (mulf (logistic (addf (extractStridedSlice S1000x256 ![0, 256] gi h1) (extractStridedSlice S1000x256 ![0, 256] gh h1))) hprev)
        (ix2 p q)
      = Cert.Gru.cell (gi (ix2 p (Cert.Gru.colR q))) (gi (ix2 p (Cert.Gru.colZ q))) (gi (ix2 p (Cert.Gru.colN q)))
          (gh (ix2 p (Cert.Gru.colR q))) (gh (ix2 p (Cert.Gru.colZ q))) (gh (ix2 p (Cert.Gru.colN q))) (hprev (ix2 p q)) := by
  simp only [addf, mulf, subf, logistic, tanh, broadcast, third_lo, third_mid, third_hi]
  rfl

/-- THE BODY'S STORED VALUE at (p, q) is the update of the tile's row p at column q, the weights and biases as loaded. -/
theorem pay_apply (v0 v3 : Vec Ideal S1000x256 .f32) (v5 v7 : Vec Ideal S256x768 .bf16) (v10 v15 : Vec Ideal S768 .f32)
    (p : Fin 1000) (q : Fin 256) :
    Gen.k0_pay1 (F := Ideal) v0 v3 v5 v7 v10 v15 (ix2 p q) = Cert.Gru.update (n := 1000) v0 v3 v5 v7 v10 v15 p q := by
  unfold Gen.k0_pay1
  refine (combine_apply _ _ v3 _ _ _ p q).trans ?_
  unfold Cert.Gru.update
  simp only [affine_tile, shapeCast_self]
  rfl

end Cert.KernelIdeal.GruTile

end
-- ==== Proof.GruArray.lean ====
/-
  From the tiles to the whole result array.

  The grid has 50 points. At point t the body is given rows 1000·t … 1000·t + 999 of the aggregated messages and of
  the old states (all 256 columns), the whole [256, 768] weight matrices and the whole [768] biases, and writes
  back rows 1000·t … 1000·t + 999 of the result. The update of a row reads only that row of the two matrices, so what
  point t writes back is block t of ONE function of the whole arrays: the update over the arrays as the region finds
  them. The 50 blocks cover all 50000 rows (row r lies in block r / 1000), so the result array ends holding that
  function. Every statement about one point is made for arbitrary arrays first and only then read at the arrays the
  region finds, which are never opened here.
-/
import proofs.«169423_j53008486367766_1_alg».proof.Proof.Gen.KernelIdeal.Value
import proofs.«169423_j53008486367766_1_alg».proof.Proof.GruTile

noncomputable section

namespace Cert.KernelIdeal.GruArray

open Cert.KernelIdeal Cert.KernelIdeal.Gen Idealize.ShloMosaic Idealize.ShloMosaic.TcCoe Idealize.SL.Sem
open Idealize.ShloMosaic.ValueIdx
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a <;> rfl

/-- The index maps over the 50 points: the two row-tiled inputs and the output sit at block (t, 0); the weights and
    the biases always at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

/-! ## A point's blocks, read off arbitrary arrays -/

/-- Row p of window 0's block at point t, read off ANY [50000, 256] array, is the array's row 1000·t + p. -/
theorem rows_read0 (t : Fin cfg0.N) (A : S50000x256.Idx → Elt Ideal .f32) (p : Fin 1000) (k : Fin 256) (P : Fin 50000)
    (hP : P.val = t.val * 1000 + p.val) :
    (((cfg0.win 0).blk t).view.read (Elt Ideal) A : Vec Ideal S1000x256 .f32) (ix2 p k) = A (ix2 P k) := by
  obtain ⟨e0, e1, -⟩ := block_index t
  rw [View.read_apply]
  show A _ = A _
  refine congrArg A ?_
  funext a; apply Fin.ext
  match a with
  | ⟨0, _⟩ => show win0_0.index t (0 : Fin 2) * 1000 + 1 * p.val = P.val; rw [e0, hP]; omega
  | ⟨1, _⟩ => show win0_0.index t (1 : Fin 2) * 256 + 1 * k.val = k.val; rw [e1]; omega

/-- The same of window 1's block. -/
theorem rows_read1 (t : Fin cfg0.N) (A : S50000x256.Idx → Elt Ideal .f32) (p : Fin 1000) (k : Fin 256) (P : Fin 50000)
    (hP : P.val = t.val * 1000 + p.val) :
    (((cfg0.win 1).blk t).view.read (Elt Ideal) A : Vec Ideal S1000x256 .f32) (ix2 p k) = A (ix2 P k) := by
  obtain ⟨-, -, e0, e1, -⟩ := block_index t
  rw [View.read_apply]
  show A _ = A _
  refine congrArg A ?_
  funext a; apply Fin.ext
  match a with
  | ⟨0, _⟩ => show win0_1.index t (0 : Fin 2) * 1000 + 1 * p.val = P.val; rw [e0, hP]; omega
  | ⟨1, _⟩ => show win0_1.index t (1 : Fin 2) * 256 + 1 * k.val = k.val; rw [e1]; omega

/-- Windows 2 and 3 hold the whole [256, 768] array at every point; windows 4 and 5 the whole [768] array. -/
theorem whole_read2 (t : Fin cfg0.N) (A : S256x768.Idx → Elt Ideal .bf16) :
    (((cfg0.win 2).blk t).view.read (Elt Ideal) A : Vec Ideal S256x768 .bf16) = A := by
  obtain ⟨-, -, -, -, e0, e1, -⟩ := block_index t
  funext y
  rw [View.read_apply]
  show A _ = A y
  refine congrArg A ?_
  funext a; apply Fin.ext
  match a with
  | ⟨0, _⟩ => show win0_2.index t (0 : Fin 2) * 256 + 1 * (y 0).val = (y 0).val; rw [e0]; omega
  | ⟨1, _⟩ => show win0_2.index t (1 : Fin 2) * 768 + 1 * (y 1).val = (y 1).val; rw [e1]; omega

theorem whole_read3 (t : Fin cfg0.N) (A : S256x768.Idx → Elt Ideal .bf16) :
    (((cfg0.win 3).blk t).view.read (Elt Ideal) A : Vec Ideal S256x768 .bf16) = A := by
  obtain ⟨-, -, -, -, -, -, e0, e1, -⟩ := block_index t
  funext y
  rw [View.read_apply]
  show A _ = A y
  refine congrArg A ?_
  funext a; apply Fin.ext
  match a with
  | ⟨0, _⟩ => show win0_3.index t (0 : Fin 2) * 256 + 1 * (y 0).val = (y 0).val; rw [e0]; omega
  | ⟨1, _⟩ => show win0_3.index t (1 : Fin 2) * 768 + 1 * (y 1).val = (y 1).val; rw [e1]; omega

theorem whole_read4 (t : Fin cfg0.N) (A : S768.Idx → Elt Ideal .f32) :
    (((cfg0.win 4).blk t).view.read (Elt Ideal) A : Vec Ideal S768 .f32) = A := by
  obtain ⟨-, -, -, -, -, -, -, -, e0, -⟩ := block_index t
  funext y
  rw [View.read_apply]
  show A _ = A y
  refine congrArg A ?_
  funext a; apply Fin.ext
  match a with
  | ⟨0, _⟩ => show win0_4.index t (0 : Fin 1) * 768 + 1 * (y 0).val = (y 0).val; rw [e0]; omega

theorem whole_read5 (t : Fin cfg0.N) (A : S768.Idx → Elt Ideal .f32) :
    (((cfg0.win 5).blk t).view.read (Elt Ideal) A : Vec Ideal S768 .f32) = A := by
  obtain ⟨-, -, -, -, -, -, -, -, -, e0, -⟩ := block_index t
  funext y
  rw [View.read_apply]
  show A _ = A y
  refine congrArg A ?_
  funext a; apply Fin.ext
  match a with
  | ⟨0, _⟩ => show win0_5.index t (0 : Fin 1) * 768 + 1 * (y 0).val = (y 0).val; rw [e0]; omega

/-- WHAT A POINT WRITES BACK, for arbitrary tiles whose rows are rows 1000·t + p of two arbitrary arrays X and H:
    block t of the update over X, H and the loaded weights and biases. -/
theorem point_block (t : Fin cfg0.N) (x0 x1 : Vec Ideal S1000x256 .f32) (w2 w3 : Vec Ideal S256x768 .bf16)
    (b4 b5 : Vec Ideal S768 .f32) (X H : S50000x256.Idx → Elt Ideal .f32)
    (hx : ∀ (p : Fin 1000) (k : Fin 256) (P : Fin 50000), P.val = t.val * 1000 + p.val → x0 (ix2 p k) = X (ix2 P k))
    (hh : ∀ (p : Fin 1000) (k : Fin 256) (P : Fin 50000), P.val = t.val * 1000 + p.val → x1 (ix2 p k) = H (ix2 P k)) :
    (cfg0.win 6).cut (grid0.coords t) (out0_6 x0 x1 w2 w3 b4 b5)
      = ((cfg0.win 6).blk t).view.read (Elt Ideal) (Cert.Gru.out (n := 50000) X H w2 w3 b4 b5) := by
  unfold out0_6
  rw [View.canon_unit_zero zero2]
  simp only [View.ld_unit_zero (S := S1000x256) zero2, View.ld_unit_zero (S := S256x768) zero2, View.ld_unit_zero (S := S768) zero1]
  obtain ⟨-, -, -, -, -, -, -, -, -, -, e0, e1⟩ := block_index t
  have hN : cfg0.N = 50 := N_0
  funext j
  obtain ⟨p, q, rfl⟩ : ∃ (p : Fin 1000) (q : Fin 256), j = (ix2 p q : S1000x256.Idx) := ⟨j 0, j 1, eq_ix2 j⟩
  have hP : t.val * 1000 + p.val < 50000 := by have := t.isLt; have := p.isLt; omega
  have hemb : ((cfg0.win 6).blk t).view.emb (ix2 p q) = (ix2 (⟨t.val * 1000 + p.val, hP⟩ : Fin 50000) q : S50000x256.Idx) := by
    funext a; apply Fin.ext
    match a with
    | ⟨0, _⟩ => show win0_6.index t (0 : Fin 2) * 1000 + 1 * p.val = t.val * 1000 + p.val; rw [e0]; omega
    | ⟨1, _⟩ => show win0_6.index t (1 : Fin 2) * 256 + 1 * q.val = q.val; rw [e1]; omega
  show k0_pay1 x0 x1 w2 w3 b4 b5 (ix2 p q)
      = Cert.Gru.out (n := 50000) X H w2 w3 b4 b5 (((cfg0.win 6).blk t).view.emb (ix2 p q))
  rw [hemb, Cert.Gru.out_ix2, GruTile.pay_apply]
  exact Cert.Gru.update_of_rows _ _ _ _ _ _ _ _ p ⟨t.val * 1000 + p.val, hP⟩
    (fun k => hx p k _ rfl) (fun k => hh p k _ rfl) q

/-- An index is in point t's block iff each coordinate is in the block's range on its axis. -/
theorem mem_block (t : Fin cfg0.N) (i : S50000x256.Idx) :
    i ∈ ((cfg0.win 6).blk t).view.set ↔ ∀ a : Fin 2, win0_6.index t a * S1000x256.size a ≤ (i a).val ∧ (i a).val < win0_6.index t a * S1000x256.size a + S1000x256.size a := by
  show i ∈ ((View.whole main_v22).slice (win0_6.rect t)).set ↔ _
  rw [View.set_slice_whole, Rect.mem_set_unit]
  exact Iff.rfl

/-- Every index of the result array is in some point's block: row r in block r / 1000. -/
theorem covered (i : S50000x256.Idx) :
    ∃ t : Fin cfg0.N, (cfg0.win 6).flush t = true ∧ i ∈ ((cfg0.win 6).blk t).view.set := by
  have hN : cfg0.N = 50 := N_0
  have hi0 : (i 0).val < 50000 := (i 0).isLt
  have hi1 : (i 1).val < 256 := (i 1).isLt
  have ht : (i 0).val / 1000 < cfg0.N := by rw [hN]; omega
  refine ⟨⟨(i 0).val / 1000, ht⟩, flush0_6 _, ?_⟩
  rw [mem_block]
  obtain ⟨-, -, -, -, -, -, -, -, -, -, e0, e1⟩ := block_index ⟨(i 0).val / 1000, ht⟩
  intro a
  match a with
  | ⟨0, _⟩ =>
    show win0_6.index ⟨(i 0).val / 1000, ht⟩ (0 : Fin 2) * 1000 ≤ (i 0).val ∧ (i 0).val < win0_6.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_6.index ⟨(i 0).val / 1000, ht⟩ (1 : Fin 2) * 256 ≤ (i 1).val ∧ (i 1).val < win0_6.index ⟨(i 0).val / 1000, ht⟩ (1 : Fin 2) * 256 + 256
    rw [e1]; omega

/-! ## At the arrays the region finds -/

variable (m : (ℓ : Loc nD τ sig) → Buf (Elt Ideal) ℓ) (ρ : Dev nD → PrngReg)

/-- The result: the update over the six windows' arrays as the region finds them. -/
def result (c : Dev nD) : S50000x256.Idx → Elt Ideal .f32 :=
  Cert.Gru.out (n := 50000) (V m c (Pipeline.arrRef spec0 (0 : Fin cfg0.W))) (V m c (Pipeline.arrRef spec0 (1 : Fin cfg0.W)))
    (V m c (Pipeline.arrRef spec0 (2 : Fin cfg0.W))) (V m c (Pipeline.arrRef spec0 (3 : Fin cfg0.W)))
    (V m c (Pipeline.arrRef spec0 (4 : Fin cfg0.W))) (V m c (Pipeline.arrRef spec0 (5 : Fin cfg0.W)))

/-- WHAT POINT t WRITES BACK is block t of the result. -/
theorem flushed_eq (c : Dev nD) (t : Fin cfg0.N) :
    (dats m 0 c).flushed 6 t = ((cfg0.win 6).blk t).view.read (Elt Ideal) (result m c) := by
  rw [Value.flushed6]
  have e2 : iblk m c 2 t = V m c (Pipeline.arrRef spec0 (2 : Fin cfg0.W)) := whole_read2 t _
  have e3 : iblk m c 3 t = V m c (Pipeline.arrRef spec0 (3 : Fin cfg0.W)) := whole_read3 t _
  have e4 : iblk m c 4 t = V m c (Pipeline.arrRef spec0 (4 : Fin cfg0.W)) := whole_read4 t _
  have e5 : iblk m c 5 t = V m c (Pipeline.arrRef spec0 (5 : Fin cfg0.W)) := whole_read5 t _
  rw [e2, e3, e4, e5]
  exact point_block t (iblk m c 0 t) (iblk m c 1 t) _ _ _ _ (V m c (Pipeline.arrRef spec0 (0 : Fin cfg0.W)))
    (V m c (Pipeline.arrRef spec0 (1 : Fin cfg0.W)))
    (fun p k P hP => rows_read0 t _ p k P hP) (fun p k P hP => rows_read1 t _ p k P hP)

/-- THE RESULT ARRAY after the run. -/
theorem final (c : Dev nD) : (dats m 0 c).arrAt 6 cfg0.N = result m c :=
  (dats m 0 c).arrAt_eq_of_cover 6 (result m c) (fun t _ => flushed_eq m c t) covered

/-- The kernel's run, read: the result array at the update over the arrays as the region finds them, the arguments
    unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.GruArray

end
-- ==== Proof.GruHost.lean ====
/-
  What the region finds in its windows' arrays.

  Before the kernel is launched the host gathers a source row and a relation row per edge, adds them, and sums the
  edges' rows into their destination nodes: the aggregated messages. It also transposes the two [768, 256] weight
  matrices to [256, 768] and narrows them to bf16, which on the extended reals changes nothing. The reference does
  the same gathers, the same sum and the same transposes, operation for operation, so each of these arrays is the
  reference's stage of the same arguments: the aggregation is carried as ONE function of the arguments and never
  opened. The old states and the two biases are the arguments themselves.
-/
import proofs.«169423_j53008486367766_1_alg».proof.Proof.Gen.KernelIdeal.Frame
import proofs.«169423_j53008486367766_1_alg».proof.Proof.Gen.ReferenceIdeal.Read
import Idealize.ShloMosaic.Lib.StableHlo.Run

noncomputable section

namespace Cert.KernelIdeal.GruHost

open Cert.KernelIdeal Cert.KernelIdeal.Gen Idealize.ShloMosaic Idealize.ShloMosaic.TcCoe Idealize.SL.Sem

variable (m : (ℓ : Loc nD τ sig) → Buf (Elt Ideal) ℓ)

set_option maxRecDepth 8192 in
set_option maxHeartbeats 8000000 in
/-- Window 0's array is the aggregated messages: the reference's segment sum of the same arguments. -/
theorem msgs_eq (c : Dev nD) :
    (V m c (Pipeline.arrRef spec0 (0 : Fin cfg0.W)) : S50000x256.Idx → Elt Ideal .f32)
      = Cert.ReferenceIdeal.Read.val_main_v17 (F := Ideal) (m ((c : Thread nD τ).loc main_arg0)) (m ((c : Thread nD τ).loc main_arg1))
          (m ((c : Thread nD τ).loc main_arg6)) (m ((c : Thread nD τ).loc main_arg7)) (m ((c : Thread nD τ).loc main_arg8)) := by
  show (V m c main_v17 : S50000x256.Idx → Elt Ideal .f32) = _
  dsimp only [Gen.V, Gen.hostOps0]
  after_results_simp
  rfl

/-- Window 1's array is the old states, as launched. -/
theorem states_eq (c : Dev nD) :
    V m c (Pipeline.arrRef spec0 (1 : Fin cfg0.W)) = m ((c : Thread nD τ).loc main_arg0) :=
  V_main_arg0 m c

/-- Window 2's array is the input weights transposed (the narrowing to bf16 is the identity). -/
theorem wi_eq (c : Dev nD) :
    (V m c (Pipeline.arrRef spec0 (2 : Fin cfg0.W)) : S256x768.Idx → Elt Ideal .bf16)
      = Cert.ReferenceIdeal.Read.val_main_v18 (F := Ideal) (m ((c : Thread nD τ).loc main_arg2)) := by
  show (V m c main_v19 : S256x768.Idx → Elt Ideal .bf16) = _
  dsimp only [Gen.V, Gen.hostOps0]
  after_results
  rfl

/-- Window 3's array is the state weights transposed. -/
theorem wh_eq (c : Dev nD) :
    (V m c (Pipeline.arrRef spec0 (3 : Fin cfg0.W)) : S256x768.Idx → Elt Ideal .bf16)
      = Cert.ReferenceIdeal.Read.val_main_v23 (F := Ideal) (m ((c : Thread nD τ).loc main_arg3)) := by
  show (V m c main_v21 : S256x768.Idx → Elt Ideal .bf16) = _
  dsimp only [Gen.V, Gen.hostOps0]
  after_results
  rfl

/-- Windows 4 and 5 hold the two biases, as launched. -/
theorem bi_eq (c : Dev nD) :
    V m c (Pipeline.arrRef spec0 (4 : Fin cfg0.W)) = m ((c : Thread nD τ).loc main_arg4) :=
  V_main_arg4 m c

theorem bh_eq (c : Dev nD) :
    V m c (Pipeline.arrRef spec0 (5 : Fin cfg0.W)) = m ((c : Thread nD τ).loc main_arg5) :=
  V_main_arg5 m c

end Cert.KernelIdeal.GruHost

end
-- ==== Proof.GruRef.lean ====
/-
  The reference's result, read at an index.

  The reference computes the update on the whole [50000, 256] arrays: two host matrix products against the
  transposed weights plus the biases spread over the rows, the three thirds of each [50000, 768] result by slices at
  column offsets 0, 256 and 512, the logistic function spelt out as 1 / (1 + e⁻ˣ), and the pointwise combination.
  Read at (p, q): a host product is the sum over the 256 contracted entries, a bias spread over the rows reads the
  bias at the column, a slice at offset o reads column o + q, and the spelt-out quotient is the logistic function
  of the extended reals, whose definition it is. So the result is the update of row p at column q over the
  aggregated messages, the old states, the transposed weights and the biases.
-/
import proofs.«169423_j53008486367766_1_alg».proof.Proof.Gen.ReferenceIdeal.Read
import proofs.«169423_j53008486367766_1_alg».proof.Proof.GruSpec
import Idealize.ShloMosaic.Lib.ValueLayout

noncomputable section

namespace Cert.ReferenceIdeal.GruRef

open Cert.ReferenceIdeal Cert.ReferenceIdeal.Read Idealize.ShloMosaic Idealize.ShloMosaic.ValueIdx

variable (x0 : (⟨S50000x256, .f32⟩ : BufTy).Contents (Elt Ideal)) (x1 : (⟨S16x256, .f32⟩ : BufTy).Contents (Elt Ideal))
  (x2 x3 : (⟨S768x256, .f32⟩ : BufTy).Contents (Elt Ideal)) (x4 x5 : (⟨S768, .f32⟩ : BufTy).Contents (Elt Ideal))
  (x6 x7 x8 : (⟨S800000, .i32⟩ : BufTy).Contents (Elt Ideal))

/-- The quotient 1 / (1 + e⁻ˣ), the ones the f32 word of 1.0, is the logistic function. -/
theorem quotient_logistic (x : EReal) :
    Ideal.div (Ideal.ofBits .f32 0x3F800000#32) (Ideal.ofBits .f32 0x3F800000#32 + Ideal.exp (-x)) = Ideal.logistic x := by
  rw [Cert.Gru.one_f32]; rfl

/-- The messages' affine map at (p, e): the host product against the transposed weights plus the bias at e. -/
theorem msg_affine (p : Fin 50000) (e : Fin 768) :
    val_main_v22 (F := Ideal) x0 x1 x2 x4 x6 x7 x8 (ix2 p e)
      = Cert.Gru.affine (n := 50000) (val_main_v17 (F := Ideal) x0 x1 x6 x7 x8) (val_main_v18 (F := Ideal) x2) x4 p e := by
  have el : ∀ k : Fin 256, lidx_main_v19 (ix2 p e) k = ix2 p k := fun k =>
    funext fun a => Fin.ext (by match a with | ⟨0, _⟩ => rfl | ⟨1, _⟩ => rfl)
  have er : ∀ k : Fin 256, ridx_main_v19 (ix2 p e) k = ix2 k e := fun k =>
    funext fun a => Fin.ext (by match a with | ⟨0, _⟩ => rfl | ⟨1, _⟩ => rfl)
  have eb : idx_main_v20 (idx_main_v21 (ix2 p e)) = ix1 e :=
    funext fun a => Fin.ext (by match a with | ⟨0, _⟩ => rfl)
  rw [val_main_v22_apply, val_main_v19_apply, val_main_v21_apply, val_main_v20_apply, eb]
  simp only [el, er]
  rfl

/-- The old states' affine map at (p, e). -/
theorem state_affine (p : Fin 50000) (e : Fin 768) :
    val_main_v27 (F := Ideal) x0 x3 x5 (ix2 p e)
      = Cert.Gru.affine (n := 50000) x0 (val_main_v23 (F := Ideal) x3) x5 p e := by
  have el : ∀ k : Fin 256, lidx_main_v24 (ix2 p e) k = ix2 p k := fun k =>
    funext fun a => Fin.ext (by match a with | ⟨0, _⟩ => rfl | ⟨1, _⟩ => rfl)
  have er : ∀ k : Fin 256, ridx_main_v24 (ix2 p e) k = ix2 k e := fun k =>
    funext fun a => Fin.ext (by match a with | ⟨0, _⟩ => rfl | ⟨1, _⟩ => rfl)
  have eb : idx_main_v25 (idx_main_v26 (ix2 p e)) = ix1 e :=
    funext fun a => Fin.ext (by match a with | ⟨0, _⟩ => rfl)
  rw [val_main_v27_apply, val_main_v24_apply, val_main_v26_apply, val_main_v25_apply, eb]
  simp only [el, er]
  rfl

/-- The reference's pointwise part over the two [50000, 768] affine results, the old states and five splats of the
    f32 word of 1.0, at (p, q): the three thirds read at columns q, 256 + q, 512 + q of row p, each quotient
    1 / (1 + e⁻ˣ) the logistic function, the gates combined. -/
theorem combine_apply (gi gh : FVec Ideal S50000x768 .f32) (hprev : FVec Ideal S50000x256 .f32)
    (o1 o2 o3 o4 o5 : FVec Ideal S50000x256 .f32)
    (ho1 : ∀ i, o1 i = Ideal.ofBits .f32 0x3F800000#32) (ho2 : ∀ i, o2 i = Ideal.ofBits .f32 0x3F800000#32)
    (ho3 : ∀ i, o3 i = Ideal.ofBits .f32 0x3F800000#32) (ho4 : ∀ i, o4 i = Ideal.ofBits .f32 0x3F800000#32)
    (ho5 : ∀ i, o5 i = Ideal.ofBits .f32 0x3F800000#32)
    (h0 : S50000x768.Slices ![0, 0] S50000x256) (h1 : S50000x768.Slices ![0, 256] S50000x256)
    (h2 : S50000x768.Slices ![0, 512] S50000x256) (p : Fin 50000) (q : Fin 256) :
    addf (mulf (subf o5 (Host.divf o4 (addf o3 (Host.exp (Host.negf
            (addf (extractStridedSlice S50000x256 ![0, 256] gi h1) (extractStridedSlice S50000x256 ![0, 256] gh h1)))))))
          (Host.tanh (addf (extractStridedSlice S50000x256 ![0, 512] gi h2)
            (mulf (Host.divf o2 (addf o1 (Host.exp (Host.negf
                (addf (extractStridedSlice S50000x256 ![0, 0] gi h0) (extractStridedSlice S50000x256 ![0, 0] gh h0))))))
              (extractStridedSlice S50000x256 ![0, 512] gh h2)))))
        (mulf (Host.divf o4 (addf o3 (Host.exp (Host.negf
            (addf (extractStridedSlice S50000x256 ![0, 256] gi h1) (extractStridedSlice S50000x256 ![0, 256] gh h1)))))) hprev)
        (ix2 p q)
      = Cert.Gru.cell (gi (ix2 p (Cert.Gru.colR q))) (gi (ix2 p (Cert.Gru.colZ q))) (gi (ix2 p (Cert.Gru.colN q)))
          (gh (ix2 p (Cert.Gru.colR q))) (gh (ix2 p (Cert.Gru.colZ q))) (gh (ix2 p (Cert.Gru.colN q))) (hprev (ix2 p q)) := by
  have t0 : ∀ y : FVec Ideal S50000x768 .f32, extractStridedSlice S50000x256 ![0, 0] y h0 (ix2 p q) = y (ix2 p (Cert.Gru.colR q)) :=
    fun y => slice2_axis1_apply 0 y h0 p q (Cert.Gru.colR q) (by show q.val = 0 + q.val; omega)
  have t1 : ∀ y : FVec Ideal S50000x768 .f32, extractStridedSlice S50000x256 ![0, 256] y h1 (ix2 p q) = y (ix2 p (Cert.Gru.colZ q)) :=
    fun y => slice2_axis1_apply 256 y h1 p q (Cert.Gru.colZ q) rfl
  have t2 : ∀ y : FVec Ideal S50000x768 .f32, extractStridedSlice S50000x256 ![0, 512] y h2 (ix2 p q) = y (ix2 p (Cert.Gru.colN q)) :=
    fun y => slice2_axis1_apply 512 y h2 p q (Cert.Gru.colN q) rfl
  simp only [addf, mulf, subf, Host.divf, Host.exp, Host.negf, Host.tanh, t0, t1, t2, ho1, ho2, ho3, ho4, ho5,
    Ideal.addf_def, Ideal.hostDivf_def, Ideal.hostUnary_exp_def, Ideal.hostUnary_tanh_def, Ideal.hostNegf_def,
    Ideal.negf_def, quotient_logistic]
  rfl

/-- THE REFERENCE'S RESULT is the update over the aggregated messages, the old states, the transposed weights and
    the biases. -/
theorem result_eq :
    val_main_v55 (F := Ideal) x0 x1 x2 x3 x4 x5 x6 x7 x8
      = Cert.Gru.out (n := 50000) (val_main_v17 (F := Ideal) x0 x1 x6 x7 x8) x0 (val_main_v18 (F := Ideal) x2)
          (val_main_v23 (F := Ideal) x3) x4 x5 := by
  funext i
  obtain ⟨p, q, rfl⟩ : ∃ (p : Fin 50000) (q : Fin 256), i = ix2 p q := ⟨i 0, i 1, eq_ix2 i⟩
  rw [Cert.Gru.out_ix2]
  refine (combine_apply (val_main_v22 (F := Ideal) x0 x1 x2 x4 x6 x7 x8) (val_main_v27 (F := Ideal) x0 x3 x5) x0
    (val_main_v37 (F := Ideal)) (val_main_v39 (F := Ideal)) (val_main_v44 (F := Ideal)) (val_main_v46 (F := Ideal))
    (val_main_v51 (F := Ideal))
    (fun i => by rw [val_main_v37_apply]; rfl) (fun i => by rw [val_main_v39_apply]; rfl)
    (fun i => by rw [val_main_v44_apply]; rfl) (fun i => by rw [val_main_v46_apply]; rfl)
    (fun i => by rw [val_main_v51_apply]; rfl) _ _ _ p q).trans ?_
  unfold Cert.Gru.update
  rw [msg_affine, msg_affine, msg_affine, state_affine, state_affine, state_affine]

end Cert.ReferenceIdeal.GruRef

end
-- ==== Proof.lean ====
/-
  The gated recurrent node update of a relational graph network: a kernel tiled over the nodes against its
  whole-array reference.

  Both programs aggregate, for every node, the messages on its incoming edges (a source row of the node states plus a
  relation row, summed over the edges by destination) on the host, by the same operations. The kernel then runs the
  gated recurrent update on tiles of 1000 nodes with bf16 matrix products; the reference runs it on the whole
  [50000, 256] arrays in f32. On the extended reals a change of float format is the identity, a matrix product into a
  zero accumulator and a host product are the same sum over the 256 contracted entries in the same order, the
  kernel's logistic operation is the quotient 1 / (1 + e⁻ˣ) the reference spells out, and the update of a node reads
  only that node's rows, so tiling changes nothing. The two results are one function of the arguments,
  `Cert.Gru.out` (Proof/GruSpec.lean), index by index; no law of arithmetic and no finiteness of the inputs is used.

  Proof/GruTile.lean reads the kernel body's stored value at an index of the tile; Proof/GruArray.lean takes the 50
  tiles to the whole result array and states the kernel's run; Proof/GruHost.lean says what the region finds in its
  windows' arrays; Proof/GruRef.lean reads the reference's result at an index. Here: the three frames, the
  idealization (nothing was rewritten), and the two runs set side by side.
-/
import proofs.«169423_j53008486367766_1_alg».proof.Defs
import proofs.«169423_j53008486367766_1_alg».proof.Proof.Gen.Kernel
import proofs.«169423_j53008486367766_1_alg».proof.Proof.Gen.Kernel.Skeleton
import proofs.«169423_j53008486367766_1_alg».proof.Proof.Gen.Kernel.Launch
import proofs.«169423_j53008486367766_1_alg».proof.Proof.Gen.Kernel.Points
import proofs.«169423_j53008486367766_1_alg».proof.Proof.Gen.Kernel.Frame
import proofs.«169423_j53008486367766_1_alg».proof.Proof.Gen.KernelIdeal
import proofs.«169423_j53008486367766_1_alg».proof.Proof.Gen.KernelIdeal.Skeleton
import proofs.«169423_j53008486367766_1_alg».proof.Proof.Gen.KernelIdeal.Launch
import proofs.«169423_j53008486367766_1_alg».proof.Proof.Gen.KernelIdeal.Points
import proofs.«169423_j53008486367766_1_alg».proof.Proof.Gen.KernelIdeal.Frame
import proofs.«169423_j53008486367766_1_alg».proof.Proof.Gen.ReferenceIdeal
import proofs.«169423_j53008486367766_1_alg».proof.Proof.Gen.Pre_finite_inputs
import proofs.«169423_j53008486367766_1_alg».proof.Proof.Gen.KernelIdeal.Value
import proofs.«169423_j53008486367766_1_alg».proof.Proof.Gen.ReferenceIdeal.Run
import proofs.«169423_j53008486367766_1_alg».proof.Proof.Gen.ReferenceIdeal.Read
import proofs.«169423_j53008486367766_1_alg».proof.Proof.GruArray
import proofs.«169423_j53008486367766_1_alg».proof.Proof.GruHost
import proofs.«169423_j53008486367766_1_alg».proof.Proof.GruRef
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is host operations only: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the update over the aggregated messages, the old
    states, the transposed weights and the biases: the kernel's result array by its 50 tiles, the reference's by its
    stages read at an index, the arrays the kernel's region finds being the reference's stages of the same arguments. -/
theorem algebraic : Cert.algebraic_KernelIdeal_ReferenceIdeal := by
  intro m ρ m' ρ' _ hagree
  refine ⟨Cert.KernelIdeal.GruArray.result m, Cert.KernelIdeal.GruArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v55_eq, Cert.ReferenceIdeal.GruRef.result_eq, h0, h1, h2, h3, h4, h5, h6, h7, h8]
  show _ = Cert.KernelIdeal.GruArray.result m c
  unfold Cert.KernelIdeal.GruArray.result
  rw [Cert.KernelIdeal.GruHost.msgs_eq, Cert.KernelIdeal.GruHost.states_eq, Cert.KernelIdeal.GruHost.wi_eq,
    Cert.KernelIdeal.GruHost.wh_eq, Cert.KernelIdeal.GruHost.bi_eq, Cert.KernelIdeal.GruHost.bh_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
